-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  main_v18

def fn {F : FTy → Type} [FloatOps F] (main_arg0 : FVec F S100000x128 .f32) (main_arg1 : FVec F S1600000 .f32) (main_arg2 : FVec F S128x64 .f32) (main_arg3 : FVec F S64x32 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S5000x32 : Shape := ⟨2, ![5000, 32]⟩
abbrev S1600000x32 : Shape := ⟨2, ![1600000, 32]⟩

abbrev nBuf : Space → Nat
  | .hbm => 40
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x64, .f32⟩
  | .hbm, ⟨3, _⟩ => ⟨S64x32, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x32, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x32, .f32⟩
  | .hbm, ⟨33, _⟩ => ⟨S1600000x1, .f32⟩
  | .hbm, ⟨34, _⟩ => ⟨S1600000x32, .f32⟩
  | .hbm, ⟨35, _⟩ => ⟨S1600000x32, .f32⟩
  | .hbm, ⟨36, _⟩ => ⟨S_, .f32⟩
  | .hbm, ⟨37, _⟩ => ⟨S100000x32, .f32⟩
  | .hbm, ⟨38, _⟩ => ⟨S1600000x1, .i32⟩
  | .hbm, ⟨39, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1600000x32 : Shape := ⟨2, ![1600000, 32]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x64, .f32⟩
  | .hbm, ⟨3, _⟩ => ⟨S64x32, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x32, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .f32⟩
  | .hbm, ⟨36, _⟩ => ⟨S1600000x1, .f32⟩
  | .hbm, ⟨37, _⟩ => ⟨S1600000x32, .f32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Spmm.lean ====
/-
  The two-layer graph convolution as ONE function of its six arguments.

  A sparse product `A · x` with `A` in coordinate form — edge `e` runs from node `src e` to node `dst e` with weight
  `w e` — is three steps on the host: gather row `src e` of `x` for every edge (a negative node id counted from the end,
  as jnp indexes), scale it by `w e`, and add it into row `dst e` of a zero array. `spmm64` and `spmm32` are that
  product at row widths 64 and 32, written with the reference program's own operations. Both programs apply the same
  product, so their results are equal as soon as the arrays it is applied to are.

  The network is `gnn X w W₁ W₂ = A · (relu (A · (X W₁)) W₂)`, the two dense products being the host's
  `dot_general`; the reference's run ends at exactly this term.
-/
import proofs.«167557_j12232066859181_1_alg».proof.Proof.Gen.ReferenceIdeal.Run

noncomputable section

namespace Cert.Gnn

open Cert.ReferenceIdeal Cert.ReferenceIdeal.Gen Idealize.ShloMosaic Idealize.ShloMosaic.TcCoe Idealize.SL.Sem

variable {F : FTy → Type} [FloatOps F]

/-- The row each edge reads: its source node, a negative id shifted by the node count, as a column of indices. -/
def rowIdx (s : (⟨S1600000, .i32⟩ : BufTy).Contents (Elt F)) : (⟨S1600000x1, .i32⟩ : BufTy).Contents (Elt F) :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- `A · x` for 64 columns: row `src e` of `x` times `w e`, added into row `dst e` of zeros, over all edges. -/
def spmm64 (x : (⟨S100000x64, .f32⟩ : BufTy).Contents (Elt F)) (w : (⟨S1600000, .f32⟩ : BufTy).Contents (Elt F))
    (s d : (⟨S1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 d) (mulf (Host.gather gather_S100000x64_S1600000x1_S1600000x64_1_0_n_n_0_1_164 x (rowIdx s)) (broadcastInDim S1600000x64 ![0, 1] bcast_S1600000x1_S1600000x64_0_1 (broadcastInDim S1600000x1 ![0] bcast_S1600000_S1600000x1_0 w)))

/-- `A · x` for 32 columns. -/
def spmm32 (x : (⟨S100000x32, .f32⟩ : BufTy).Contents (Elt F)) (w : (⟨S1600000, .f32⟩ : BufTy).Contents (Elt F))
    (s d : (⟨S1600000, .i32⟩ : BufTy).Contents (Elt F)) : (⟨S100000x32, .f32⟩ : BufTy).Contents (Elt F) :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 d) (mulf (Host.gather gather_S100000x32_S1600000x1_S1600000x32_1_0_n_n_0_1_132 x (rowIdx s)) (broadcastInDim S1600000x32 ![0, 1] bcast_S1600000x1_S1600000x32_0_1 (broadcastInDim S1600000x1 ![0] bcast_S1600000_S1600000x1_0 w)))

/-- `max (·, 0)` on a 100000 × 64 array. -/
def relu64 (y : (⟨S100000x64, .f32⟩ : BufTy).Contents (Elt F)) : (⟨S100000x64, .f32⟩ : BufTy).Contents (Elt F) :=
  maximumf y (broadcastInDim S100000x64 ![] bcast_S_S100000x64 (constant S_ .f32 0x00000000#32))

/-- The first dense product, `X W₁`, on the host. -/
def dense1 (X : (⟨S100000x128, .f32⟩ : BufTy).Contents (Elt F)) (W : (⟨S128x64, .f32⟩ : BufTy).Contents (Elt F)) : (⟨S100000x64, .f32⟩ : BufTy).Contents (Elt F) :=
  Host.dotGeneral dot_S100000x128_S128x64_S100000x64_1_0_0_1_n_n none X W

/-- The second, `relu h · W₂`, on the host. -/
def dense2 (h : (⟨S100000x64, .f32⟩ : BufTy).Contents (Elt F)) (W : (⟨S64x32, .f32⟩ : BufTy).Contents (Elt F)) : (⟨S100000x32, .f32⟩ : BufTy).Contents (Elt F) :=
  Host.dotGeneral dot_S100000x64_S64x32_S100000x32_1_0_0_1_n_n none (relu64 h) W

/-- The network: `A · (relu (A · (X W₁)) W₂)`. -/
def gnn (X : (⟨S100000x128, .f32⟩ : BufTy).Contents (Elt F)) (w : (⟨S1600000, .f32⟩ : BufTy).Contents (Elt F)) (W1 : (⟨S128x64, .f32⟩ : BufTy).Contents (Elt F))
    (W2 : (⟨S64x32, .f32⟩ : BufTy).Contents (Elt F)) (s d : (⟨S1600000, .i32⟩ : BufTy).Contents (Elt F)) : (⟨S100000x32, .f32⟩ : BufTy).Contents (Elt F) :=
  spmm32 (dense2 (spmm64 (dense1 X W1) w s d) W2) w s d

/-- The reference's run (its operations' composed term of the launch contents) is the network of its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = gnn (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

end Cert.Gnn

end
-- ==== Proof.KernelRun.lean ====
/-
  The idealized kernel's run with its final memory readable.

  The program is four segments: the first projection's pallas_call, sixteen host operations (the first sparse product),
  the second pallas_call, sixteen more (the second sparse product). Its run through the library's several-region launch
  ends with every unscoped buffer of every core at the last boundary's contents `W4`: the fold of the last stretch over
  the contents the second region leaves, themselves the fold of the first stretch over what the first region leaves.
  The generated frame keeps of that only the six arguments; here the reading of the final memory is a parameter, so
  that a value proof can also read the result buffer.
-/
import proofs.«167557_j12232066859181_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and whatever follows from "every unscoped
    buffer of every core holds the last boundary's contents" holds of its final memory. -/
theorem run_read {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result buffer NAMED: it ends at the last boundary's contents of `main_v27`, the arguments as
    launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_read m ρ (fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Whole

end
-- ==== Proof.Boundaries.lean ====
/-
  The contents at the program's boundaries, read back to the launch memory.

  The first stretch of host operations computes `main_v13 = A · main_v0` (the sparse product at 64 columns) from the
  first region's output and the edge arrays, and writes none of the arguments; the second computes the result
  `main_v27 = A · main_v14` at 32 columns likewise. A region changes only its output array. Walking the boundaries
  backwards, the result is `A ·` (second region's output array), whose first input array is `A ·` (first region's
  output array) and whose second is `W₂` as launched; the first region's inputs are `X` and `W₁` as launched.
-/
import proofs.«167557_j12232066859181_1_alg».proof.Proof.Gen.KernelIdeal.Frame
import proofs.«167557_j12232066859181_1_alg».proof.Proof.Spmm

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]

/-! ## The two stretches, from any contents -/

/-- The first stretch leaves `main_v13` at the sparse product of `main_v0` with the edge arrays. -/
theorem stretch1_v13 (Wv : Valuation τ sig (Elt F)) :
    StableHlo.after hostOps1 Wv (Proc.devRef .tc main_v13)
      = Cert.Gnn.spmm64 (Wv (Proc.devRef .tc main_v0)) (Wv (Proc.devRef .tc main_arg1)) (Wv (Proc.devRef .tc main_arg4))
          (Wv (Proc.devRef .tc main_arg5)) := by
  after_results; rfl

/-- It writes none of the arrays the later segments read. -/
theorem stretch1_arg1 (Wv : Valuation τ sig (Elt F)) :
    StableHlo.after hostOps1 Wv (Proc.devRef .tc main_arg1) = Wv (Proc.devRef .tc main_arg1) := by after_results
theorem stretch1_arg3 (Wv : Valuation τ sig (Elt F)) :
    StableHlo.after hostOps1 Wv (Proc.devRef .tc main_arg3) = Wv (Proc.devRef .tc main_arg3) := by after_results
theorem stretch1_arg4 (Wv : Valuation τ sig (Elt F)) :
    StableHlo.after hostOps1 Wv (Proc.devRef .tc main_arg4) = Wv (Proc.devRef .tc main_arg4) := by after_results
theorem stretch1_arg5 (Wv : Valuation τ sig (Elt F)) :
    StableHlo.after hostOps1 Wv (Proc.devRef .tc main_arg5) = Wv (Proc.devRef .tc main_arg5) := by after_results

/-- The second stretch leaves the result `main_v27` at the sparse product of `main_v14` with the edge arrays. -/
theorem stretch2_v27 (Wv : Valuation τ sig (Elt F)) :
    StableHlo.after hostOps2 Wv (Proc.devRef .tc main_v27)
      = Cert.Gnn.spmm32 (Wv (Proc.devRef .tc main_v14)) (Wv (Proc.devRef .tc main_arg1)) (Wv (Proc.devRef .tc main_arg4))
          (Wv (Proc.devRef .tc main_arg5)) := by
  after_results; rfl

variable (m : (ℓ : Loc nD τ sig) → Buf (Elt F) ℓ) (ρ : Dev nD → PrngReg)

/-! ## The edge arrays and the weights at each boundary: as launched -/

theorem W1_arg1 (c : Dev nD) : W1 m ρ c (Proc.devRef .tc main_arg1) = m ((c : Thread nD τ).loc main_arg1) :=
  W1_of_ne m ρ c main_arg1 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

theorem W3_arg1 (c : Dev nD) : W3 m ρ c (Proc.devRef .tc main_arg1) = m ((c : Thread nD τ).loc main_arg1) :=
  (W3_of_ne m ρ c main_arg1 (by decide)).trans ((stretch1_arg1 (W1 m ρ c)).trans (W1_arg1 m ρ c))
theorem W3_arg4 (c : Dev nD) : W3 m ρ c (Proc.devRef .tc main_arg4) = m ((c : Thread nD τ).loc main_arg4) :=
  (W3_of_ne m ρ c main_arg4 (by decide)).trans ((stretch1_arg4 (W1 m ρ c)).trans (W1_arg4 m ρ c))
theorem W3_arg5 (c : Dev nD) : W3 m ρ c (Proc.devRef .tc main_arg5) = m ((c : Thread nD τ).loc main_arg5) :=
  (W3_of_ne m ρ c main_arg5 (by decide)).trans ((stretch1_arg5 (W1 m ρ c)).trans (W1_arg5 m ρ c))

/-! ## The regions' input arrays -/

/-- The first region finds `X` and `W₁` as launched. -/
theorem V0_arg0 (c : Dev nD) : V0 m ρ c main_arg0 = m ((c : Thread nD τ).loc main_arg0) := rfl
theorem V0_arg2 (c : Dev nD) : V0 m ρ c main_arg2 = m ((c : Thread nD τ).loc main_arg2) := rfl

/-- The second finds `W₂` as launched, -/
theorem V2_arg3 (c : Dev nD) : V2 m ρ c main_arg3 = m ((c : Thread nD τ).loc main_arg3) :=
  (stretch1_arg3 (W1 m ρ c)).trans (W1_arg3 m ρ c)

/-- and, as its first input, the sparse product of the first region's output array. -/
theorem V2_v13 (c : Dev nD) :
    V2 m ρ c main_v13 = Cert.Gnn.spmm64 ((dat0 (V0 m ρ) c).arrAt 2 cfg0.N) (m ((c : Thread nD τ).loc main_arg1))
      (m ((c : Thread nD τ).loc main_arg4)) (m ((c : Thread nD τ).loc main_arg5)) := by
  refine (stretch1_v13 (W1 m ρ c)).trans ?_
  rw [W1_arg1, W1_arg4, W1_arg5]
  exact congrArg (fun x => Cert.Gnn.spmm64 x _ _ _) (W1_arr m ρ c 2)

/-! ## The result -/

/-- The result buffer ends at the sparse product of the second region's output array. -/
theorem W4_v27 (c : Dev nD) :
    W4 m ρ c (Proc.devRef .tc main_v27) = Cert.Gnn.spmm32 ((dat1 (V2 m ρ) c).arrAt 2 cfg1.N) (m ((c : Thread nD τ).loc main_arg1))
      (m ((c : Thread nD τ).loc main_arg4)) (m ((c : Thread nD τ).loc main_arg5)) := by
  refine (stretch2_v27 (W3 m ρ c)).trans ?_
  rw [W3_arg1, W3_arg4, W3_arg5]
  exact congrArg (fun x => Cert.Gnn.spmm32 x _ _ _) (W3_arr m ρ c 2)

end Cert.KernelIdeal.Whole

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.Products.lean ====
/-
  The four dense products read at an index, and a block's product against the whole array's.

  Kernel side: the first body multiplies a 5000 × 128 block of `X` by the whole 128 × 64 `W₁` (each rounded to bf16 on
  the way in, which is the identity on extended reals) into a zero accumulator; the second takes `max (·, 0)` of a
  5000 × 64 block first and multiplies by the whole 64 × 32 `W₂`. Host side: the two `dot_general`s on 100000 rows.
  All four are plain products, so each entry is `∑ k, a (r, k) · b (k, c)`.
  Hence a block's product at row `r` is the whole product at row `q · 5000 + r` whenever the block is rows
  `q · 5000 … q · 5000 + 4999` of the array: the sum is the same sum, term by term.
-/
import proofs.«167557_j12232066859181_1_alg».proof.Proof.LibPlainDot
import proofs.«167557_j12232066859181_1_alg».proof.Proof.Spmm
import proofs.«167557_j12232066859181_1_alg».proof.Proof.Gen.KernelIdeal.Skeleton
import Idealize.ShloMosaic.Lib.Pipeline.Value

noncomputable section

namespace Cert.KernelIdeal.Products

open Cert.KernelIdeal Cert.KernelIdeal.Gen Idealize.ShloMosaic Idealize.ShloMosaic.ValueIdx

/-- The f32 zero the second body and the reference's relu compare with. -/
abbrev z : EReal := Ideal.ofBits .f32 0x00000000#32

/-- The first body's stored value at `(r, c)`: the block's row `r` against `W₁`'s column `c`. -/
theorem pay1_apply (x0 : Vec Ideal S5000x128 .f32) (x1 : Vec Ideal S128x64 .f32) (r : Fin 5000) (c : Fin 64) :
    k0_pay1 (F := Ideal) x0 x1 (ix2 r c) = ∑ k : Fin 128, x0 (ix2 r k) * x1 (ix2 k c) := by
  unfold k0_pay1
  exact PlainDot.matmul_zero_apply 5000 128 64 none _ _ r c

/-- The host's first product at `(r, c)`. -/
theorem dense1_apply (X : FVec Ideal S100000x128 .f32) (W : FVec Ideal S128x64 .f32) (r : Fin 100000) (c : Fin 64) :
    Cert.Gnn.dense1 (F := Ideal) X W (ix2 r c) = ∑ k : Fin 128, X (ix2 r k) * W (ix2 k c) := by
  unfold Cert.Gnn.dense1
  exact PlainDot.dotGeneral_apply 100000 128 64 none .single X W r c

/-- The second body's stored value at `(r, c)`: the block's row `r`, negative entries replaced by zero, against `W₂`'s
    column `c`. -/
theorem pay2_apply (x0 : Vec Ideal S5000x64 .f32) (x1 : Vec Ideal S64x32 .f32) (r : Fin 5000) (c : Fin 32) :
    k1_pay1 (F := Ideal) x0 x1 (ix2 r c) = ∑ k : Fin 64, max (x0 (ix2 r k)) z * x1 (ix2 k c) := by
  unfold k1_pay1
  refine (PlainDot.matmul_zero_apply 5000 64 32 none _ _ r c).trans ?_
  refine Finset.sum_congr rfl fun k _ => ?_
  show max (shapeCast S5000x64 x0 shapeCasts_S5000x64_S5000x64 (ix2 r k)) z * x1 (ix2 k c) = _
  rw [shapeCast_self]

/-- The reference's relu at an index. -/
theorem relu64_apply (Y : FVec Ideal S100000x64 .f32) (i : S100000x64.Idx) :
    Cert.Gnn.relu64 (F := Ideal) Y i = max (Y i) z := by
  unfold Cert.Gnn.relu64
  show max (Y i) _ = _
  refine congrArg (max (Y i)) ?_
  exact broadcastInDim_apply _ _ _ i ix0 (fun a => a.elim0)

/-- The host's second product at `(r, c)`. -/
theorem dense2_apply (Y : FVec Ideal S100000x64 .f32) (W : FVec Ideal S64x32 .f32) (r : Fin 100000) (c : Fin 32) :
    Cert.Gnn.dense2 (F := Ideal) Y W (ix2 r c) = ∑ k : Fin 64, max (Y (ix2 r k)) z * W (ix2 k c) := by
  unfold Cert.Gnn.dense2
  refine (PlainDot.dotGeneral_apply 100000 64 32 none .single _ W r c).trans ?_
  exact Finset.sum_congr rfl fun k _ => by rw [relu64_apply]

/-- A block of rows `q · 5000 …` of `X` times `W₁` is those rows of `X W₁`. -/
theorem block1 (X : FVec Ideal S100000x128 .f32) (W : FVec Ideal S128x64 .f32)
    (x0 : Vec Ideal S5000x128 .f32) (x1 : Vec Ideal S128x64 .f32) (q : Nat) (hq : q < 20)
    (h0 : ∀ (r : Fin 5000) (k : Fin 128), x0 (ix2 r k) = X (ix2 ⟨q * 5000 + r.val, by omega⟩ k))
    (h1 : ∀ (k : Fin 128) (c : Fin 64), x1 (ix2 k c) = W (ix2 k c)) (r : Fin 5000) (c : Fin 64) :
    k0_pay1 (F := Ideal) x0 x1 (ix2 r c) = Cert.Gnn.dense1 (F := Ideal) X W (ix2 ⟨q * 5000 + r.val, by omega⟩ c) := by
  rw [pay1_apply, dense1_apply]
  exact Finset.sum_congr rfl fun k _ => by rw [h0, h1]

/-- A block of rows `q · 5000 …` of `Y`, clamped at zero, times `W₂` is those rows of `relu Y · W₂`. -/
theorem block2 (Y : FVec Ideal S100000x64 .f32) (W : FVec Ideal S64x32 .f32)
    (x0 : Vec Ideal S5000x64 .f32) (x1 : Vec Ideal S64x32 .f32) (q : Nat) (hq : q < 20)
    (h0 : ∀ (r : Fin 5000) (k : Fin 64), x0 (ix2 r k) = Y (ix2 ⟨q * 5000 + r.val, by omega⟩ k))
    (h1 : ∀ (k : Fin 64) (c : Fin 32), x1 (ix2 k c) = W (ix2 k c)) (r : Fin 5000) (c : Fin 32) :
    k1_pay1 (F := Ideal) x0 x1 (ix2 r c) = Cert.Gnn.dense2 (F := Ideal) Y W (ix2 ⟨q * 5000 + r.val, by omega⟩ c) := by
  rw [pay2_apply, dense2_apply]
  exact Finset.sum_congr rfl fun k _ => by rw [h0, h1]

end Cert.KernelIdeal.Products

end
-- ==== Proof.Region0.lean ====
/-
  The first pallas_call's output array is `X W₁`.

  The grid has twenty points; point `t` stages rows `t · 5000 … t · 5000 + 4999` of `X` and the whole of `W₁`, stores their
  product, and writes it back to the same rows of the output array. A block's product is those rows of the whole product
  (the contraction runs over all 128 columns inside one block), and the twenty row blocks tile the 100000 rows, so the
  array ends at the host's `dot_general` of the two input arrays — stated at whatever contents the region is entered
  with.
-/
import proofs.«167557_j12232066859181_1_alg».proof.Proof.Gen.KernelIdeal.Frame
import proofs.«167557_j12232066859181_1_alg».proof.Proof.Products

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the twenty grid points: at point `t` the row-blocked windows (the first input and the output)
    are at block row `t`, block column 0; the weight window stays at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is rows `t · 5000 … t · 5000 + 4999` of the whole product of the arrays the region finds. -/
theorem flushed_eq (c : Dev nD) (t : Fin cfg0.N) :
    (dat0 V c).flushed 2 t
      = ((cfg0.win 2).blk t).view.read (Elt Ideal) (Cert.Gnn.dense1 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e00, e01, e10, e11, e20, e21⟩ := index_maps t
  have hN : t.val < 20 := by have h := t.isLt; have hn : cfg0.N = 20 := N_0; omega
  funext j
  obtain ⟨r, cc, rfl⟩ : ∃ (r : Fin 5000) (cc : Fin 64), j = ix2 r cc := ⟨j 0, j 1, eq_ix2 j⟩
  show k0_pay1 (iblk0 V c 0 t) (iblk0 V c 1 t) (ix2 r cc)
    = Cert.Gnn.dense1 (F := Ideal) (V c main_arg0) (V c main_arg2) (((cfg0.win 2).blk t).view.emb (ix2 r cc))
  refine (Products.block1 (V c main_arg0) (V c main_arg2) (iblk0 V c 0 t) (iblk0 V c 1 t) t.val hN ?_ ?_ r cc).trans ?_
  · intro r k
    show V c main_arg0 (((cfg0.win 0).blk t).view.emb (ix2 r k)) = _
    refine congrArg _ (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  · intro k cc
    show V c main_arg2 (((cfg0.win 1).blk t).view.emb (ix2 k cc)) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * cc.val = cc.val; omega
  · refine congrArg _ (funext fun a => Fin.ext ?_)
    match a with
    | ⟨0, _⟩ => show t.val * 5000 + r.val = win0_2.index t (0 : Fin 2) * 5000 + 1 * r.val; omega
    | ⟨1, _⟩ => show cc.val = win0_2.index t (1 : Fin 2) * 64 + 1 * cc.val; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Row `ρ` of the output array belongs to point `ρ / 5000`, one of the twenty. -/
theorem point_lt (i : S100000x64.Idx) : (i 0).val / 5000 < cfg0.N := by
  have hi0 : (i 0).val < 100000 := (i 0).isLt
  show (i 0).val / 5000 < grid0.N
  rw [N_0]; omega

/-- Every row of the output array is in some point's block: row `ρ` in that of point `ρ / 5000`. -/
theorem cover (i : S100000x64.Idx) :
    ∃ t : Fin cfg0.N, (cfg0.win 2).flush t = true ∧ i ∈ ((cfg0.win 2).blk t).view.set := by
  have hi1 : (i 1).val < 64 := (i 1).isLt
  refine ⟨⟨(i 0).val / 5000, point_lt i⟩, flush0_2 _, ?_⟩
  rw [mem_blk]
  obtain ⟨-, -, -, -, e20, e21⟩ := index_maps ⟨(i 0).val / 5000, point_lt i⟩
  have e20' : win0_2.index ⟨(i 0).val / 5000, point_lt i⟩ (0 : Fin 2) = (i 0).val / 5000 := e20
  intro a
  match a with
  | ⟨0, _⟩ =>
    show win0_2.index ⟨(i 0).val / 5000, point_lt i⟩ (0 : Fin 2) * 5000 ≤ (i 0).val
      ∧ (i 0).val < win0_2.index ⟨(i 0).val / 5000, point_lt i⟩ (0 : Fin 2) * 5000 + 5000
    rw [e20']; omega
  | ⟨1, _⟩ =>
    show win0_2.index ⟨(i 0).val / 5000, point_lt i⟩ (1 : Fin 2) * 64 ≤ (i 1).val
      ∧ (i 1).val < win0_2.index ⟨(i 0).val / 5000, point_lt i⟩ (1 : Fin 2) * 64 + 64
    rw [e21]; omega

/-- THE OUTPUT ARRAY after the region: the whole product of the arrays the region finds. -/
theorem array_eq (c : Dev nD) :
    (dat0 V c).arrAt 2 cfg0.N = Cert.Gnn.dense1 (F := Ideal) (V c main_arg0) (V c main_arg2) :=
  (dat0 V c).arrAt_eq_of_cover 2 _ (fun t _ => flushed_eq V c t) (cover)

end Cert.KernelIdeal.Region0

end
-- ==== Proof.Region1.lean ====
/-
  The second pallas_call's output array is `relu Y · W₂`.

  The grid has twenty points; point `t` stages rows `t · 5000 … t · 5000 + 4999` of `Y` (the first sparse product) and
  the whole of `W₂`, replaces the negative entries of the block by zero, stores the product, and writes it back to the
  same rows of the output array. Clamping is entrywise and the contraction runs over all 64 columns inside one block, so
  a block's result is those rows of `relu Y · W₂`; the twenty row blocks tile the 100000 rows, so the array ends at the
  host's relu followed by its `dot_general` — stated at whatever contents the region is entered with.
-/
import proofs.«167557_j12232066859181_1_alg».proof.Proof.Gen.KernelIdeal.Frame
import proofs.«167557_j12232066859181_1_alg».proof.Proof.Products

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the twenty grid points: at point `t` the row-blocked windows (the first input and the output)
    are at block row `t`, block column 0; the weight window stays at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is rows `t · 5000 … t · 5000 + 4999` of the whole product of the arrays the region finds. -/
theorem flushed_eq (c : Dev nD) (t : Fin cfg1.N) :
    (dat1 V c).flushed 2 t
      = ((cfg1.win 2).blk t).view.read (Elt Ideal) (Cert.Gnn.dense2 (F := Ideal) (V c main_v13) (V c main_arg3)) := by
  show (cfg1.win 2).cut (grid1.coords t) ((dat1 V c).after 2 t) = _
  rw [after1_2]
  unfold out1_2
  rw [View.canon_unit_zero origin]
  simp only [View.ld_unit_zero (S := S5000x64) origin, View.ld_unit_zero (S := S64x32) origin]
  obtain ⟨e00, e01, e10, e11, e20, e21⟩ := index_maps t
  have hN : t.val < 20 := by have h := t.isLt; have hn : cfg1.N = 20 := N_1; omega
  funext j
  obtain ⟨r, cc, rfl⟩ : ∃ (r : Fin 5000) (cc : Fin 32), j = ix2 r cc := ⟨j 0, j 1, eq_ix2 j⟩
  show k1_pay1 (iblk1 V c 0 t) (iblk1 V c 1 t) (ix2 r cc)
    = Cert.Gnn.dense2 (F := Ideal) (V c main_v13) (V c main_arg3) (((cfg1.win 2).blk t).view.emb (ix2 r cc))
  refine (Products.block2 (V c main_v13) (V c main_arg3) (iblk1 V c 0 t) (iblk1 V c 1 t) t.val hN ?_ ?_ r cc).trans ?_
  · intro r k
    show V c main_v13 (((cfg1.win 0).blk t).view.emb (ix2 r k)) = _
    refine congrArg _ (funext fun a => Fin.ext ?_)
    match a with
    | ⟨0, _⟩ => show win1_0.index t (0 : Fin 2) * 5000 + 1 * r.val = t.val * 5000 + r.val; omega
    | ⟨1, _⟩ => show win1_0.index t (1 : Fin 2) * 64 + 1 * k.val = k.val; omega
  · intro k cc
    show V c main_arg3 (((cfg1.win 1).blk t).view.emb (ix2 k cc)) = _
    refine congrArg _ (funext fun a => Fin.ext ?_)
    match a with
    | ⟨0, _⟩ => show win1_1.index t (0 : Fin 2) * 64 + 1 * k.val = k.val; omega
    | ⟨1, _⟩ => show win1_1.index t (1 : Fin 2) * 32 + 1 * cc.val = cc.val; omega
  · refine congrArg _ (funext fun a => Fin.ext ?_)
    match a with
    | ⟨0, _⟩ => show t.val * 5000 + r.val = win1_2.index t (0 : Fin 2) * 5000 + 1 * r.val; omega
    | ⟨1, _⟩ => show cc.val = win1_2.index t (1 : Fin 2) * 32 + 1 * cc.val; omega

/-- An index of the output array is in point `t`'s block iff each coordinate is in the block's range on its axis. -/
theorem mem_blk (t : Fin cfg1.N) (i : S100000x32.Idx) :
    i ∈ ((cfg1.win 2).blk t).view.set ↔ ∀ a : Fin 2, win1_2.index t a * S5000x32.size a ≤ (i a).val
      ∧ (i a).val < win1_2.index t a * S5000x32.size a + S5000x32.size a := by
  show i ∈ ((View.whole main_v14).slice (win1_2.rect t)).set ↔ _
  rw [View.set_slice_whole, Rect.mem_set_unit]
  exact Iff.rfl

/-- Row `ρ` of the output array belongs to point `ρ / 5000`, one of the twenty. -/
theorem point_lt (i : S100000x32.Idx) : (i 0).val / 5000 < cfg1.N := by
  have hi0 : (i 0).val < 100000 := (i 0).isLt
  show (i 0).val / 5000 < grid1.N
  rw [N_1]; omega

/-- Every row of the output array is in some point's block: row `ρ` in that of point `ρ / 5000`. -/
theorem cover (i : S100000x32.Idx) :
    ∃ t : Fin cfg1.N, (cfg1.win 2).flush t = true ∧ i ∈ ((cfg1.win 2).blk t).view.set := by
  have hi1 : (i 1).val < 32 := (i 1).isLt
  refine ⟨⟨(i 0).val / 5000, point_lt i⟩, flush1_2 _, ?_⟩
  rw [mem_blk]
  obtain ⟨-, -, -, -, e20, e21⟩ := index_maps ⟨(i 0).val / 5000, point_lt i⟩
  have e20' : win1_2.index ⟨(i 0).val / 5000, point_lt i⟩ (0 : Fin 2) = (i 0).val / 5000 := e20
  intro a
  match a with
  | ⟨0, _⟩ =>
    show win1_2.index ⟨(i 0).val / 5000, point_lt i⟩ (0 : Fin 2) * 5000 ≤ (i 0).val
      ∧ (i 0).val < win1_2.index ⟨(i 0).val / 5000, point_lt i⟩ (0 : Fin 2) * 5000 + 5000
    rw [e20']; omega
  | ⟨1, _⟩ =>
    show win1_2.index ⟨(i 0).val / 5000, point_lt i⟩ (1 : Fin 2) * 32 ≤ (i 1).val
      ∧ (i 1).val < win1_2.index ⟨(i 0).val / 5000, point_lt i⟩ (1 : Fin 2) * 32 + 32
    rw [e21]; omega

/-- THE OUTPUT ARRAY after the region: the whole product of the arrays the region finds. -/
theorem array_eq (c : Dev nD) :
    (dat1 V c).arrAt 2 cfg1.N = Cert.Gnn.dense2 (F := Ideal) (V c main_v13) (V c main_arg3) :=
  (dat1 V c).arrAt_eq_of_cover 2 _ (fun t _ => flushed_eq V c t) (cover)

end Cert.KernelIdeal.Region1

end
-- ==== Proof.KernelValue.lean ====
/-
  The idealized kernel's result is the network of its arguments.

  Reading the boundaries backwards: the result is the sparse product of the second region's output array; that array is
  `relu Y · W₂` of the contents the region finds, `Y` being the sparse product of the first region's output array and
  `W₂` as launched; the first region's output array is `X W₁` of the launch contents. Composed, the result is
  `A · (relu (A · (X W₁)) · W₂)`.
-/
import proofs.«167557_j12232066859181_1_alg».proof.Proof.KernelRun
import proofs.«167557_j12232066859181_1_alg».proof.Proof.Boundaries
import proofs.«167557_j12232066859181_1_alg».proof.Proof.Region0
import proofs.«167557_j12232066859181_1_alg».proof.Proof.Region1

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The last boundary's contents of the result buffer: the network of the launch contents of the six arguments. -/
theorem result_eq (c : Dev nD) :
    W4 m ρ c (Proc.devRef .tc main_v27)
      = Cert.Gnn.gnn (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [W4_v27, Region1.array_eq (V2 m ρ) c, V2_v13, V2_arg3, Region0.array_eq (V0 m ρ) c, V0_arg0, V0_arg2]
  rfl

/-- Every weakly fair execution of the idealized kernel terminates with the result at the network of the arguments and
    the arguments as launched. -/
theorem run : θ_run defs (onTc (τ := τ) (main (F := Ideal))) ⟨m, fun _ => 0, ρ⟩ (fun r => ∀ c : Dev nD,
      r.2.mem ((c.tc : Thread nD τ).loc main_v27)
        = Cert.Gnn.gnn (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Whole

end
-- ==== Proof.lean ====
/-
  A two-layer graph convolution: `A · (relu (A · (X W₁)) · W₂)` over 100000 nodes and 1600000 weighted edges, `A` the
  adjacency in coordinate form (edge `e` adds `w e` times row `src e` into row `dst e`).

  The kernel computes the two dense products `X W₁` and `relu (·) W₂` in pallas_calls — twenty row blocks of 5000 rows
  each, the operands rounded to bf16 on the way into the matrix unit, the relu fused into the second — and leaves the two
  sparse products to the host's gather and scatter-add; the reference does all four products on the host. Over the
  extended reals the rounding is the identity, a block's product is the corresponding rows of the whole product (the
  contraction axis is never split), and the row blocks tile the array, so each pallas_call's output array IS the host's
  `dot_general` of its inputs; the sparse products are the same operations on both sides. Hence both programs end at one
  function `gnn` of their arguments (Proof/Spmm.lean), and no law of arithmetic beyond reading a matrix product as a sum
  is needed: the precondition's finiteness is never used.

  The claims: the three frames (the two kernels' generated, the reference's its run with the result dropped); the
  idealization rewrote no operation, so `preserves` is `True`; `algebraic` sets the idealized kernel's run
  (Proof/KernelValue.lean) beside the reference's (Proof/Spmm.lean) at memories agreeing on the arguments.
-/
import proofs.«167557_j12232066859181_1_alg».proof.Defs
import proofs.«167557_j12232066859181_1_alg».proof.Proof.Gen.Kernel
import proofs.«167557_j12232066859181_1_alg».proof.Proof.Gen.Kernel.Skeleton
import proofs.«167557_j12232066859181_1_alg».proof.Proof.Gen.Kernel.Launch
import proofs.«167557_j12232066859181_1_alg».proof.Proof.Gen.Kernel.Points
import proofs.«167557_j12232066859181_1_alg».proof.Proof.Gen.Kernel.Frame
import proofs.«167557_j12232066859181_1_alg».proof.Proof.Gen.KernelIdeal
import proofs.«167557_j12232066859181_1_alg».proof.Proof.Gen.KernelIdeal.Skeleton
import proofs.«167557_j12232066859181_1_alg».proof.Proof.Gen.KernelIdeal.Launch
import proofs.«167557_j12232066859181_1_alg».proof.Proof.Gen.KernelIdeal.Points
import proofs.«167557_j12232066859181_1_alg».proof.Proof.Gen.KernelIdeal.Frame
import proofs.«167557_j12232066859181_1_alg».proof.Proof.Gen.ReferenceIdeal
import proofs.«167557_j12232066859181_1_alg».proof.Proof.Gen.Pre_finite_inputs
import proofs.«167557_j12232066859181_1_alg».proof.Proof.Gen.ReferenceIdeal.Run
import proofs.«167557_j12232066859181_1_alg».proof.Proof.Spmm
import proofs.«167557_j12232066859181_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the six arguments both programs end at `gnn` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.Gnn.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
